-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32x64 .f32) (main_arg5 : FVec F S32x64 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x32 .f32) (main_arg1 : FVec F S64x32 .f32) (main_arg2 : FVec F S64x32 .f32) (main_arg3 : FVec F S64 .f32) (main_arg4 : FVec F S32x64 .f32) (main_arg5 : FVec F S32x64 .f32) (main_arg6 : FVec F S32 .f32) (main_arg7 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x32 : Shape := ⟨2, ![100000, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1600000x64 : Shape := ⟨2, ![1600000, 64]⟩
abbrev S1x32 : Shape := ⟨2, ![1, 32]⟩

abbrev nBuf : Space → Nat
  | .hbm => 59
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S64x32, .f32⟩
  | .hbm, ⟨3, _⟩ => ⟨S64, .f32⟩
  | .hbm, ⟨4, _⟩ => ⟨S32x64, .f32⟩
  | .hbm, ⟨5, _⟩ => ⟨S32x64, .f32⟩
  | .hbm, ⟨6, _⟩ => ⟨S32, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S_, .f32⟩
  | .hbm, ⟨35, _⟩ => ⟨S100000x32, .f32⟩
  | .hbm, ⟨36, _⟩ => ⟨S1600000x1, .i32⟩
  | .hbm, ⟨37, _⟩ => ⟨S100000x32, .f32⟩
  | .hbm, ⟨38, _⟩ => ⟨S32x64, .f32⟩
  | .hbm, ⟨39, _⟩ => ⟨S32x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S64x32, .f32⟩
  | .hbm, ⟨56, _⟩ => ⟨S64x32, .f32⟩
  | .hbm, ⟨57, _⟩ => ⟨S1x32, .f32⟩
  | .hbm, ⟨58, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x1, .f32⟩
  | .local _ .vmem, ⟨5, _⟩ => ⟨S5000x1, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x32, .f32⟩
  | .local _ .vmem, ⟨18, _⟩ => ⟨S64x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x32 : S_.BroadcastsInDim S100000x32 (![] : Fin 0 → Fin S100000x32.rank)
  transposes_S64x32_S32x64_1_0 : S64x32.Transposes [1, 0] S32x64
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S32x64_S64x32_1_0 : S32x64.Transposes [1, 0] S64x32
  shapeCasts_S32_S1x32 : S32.ShapeCasts S1x32
  shapeCasts_S5000x64_S5000x64 : S5000x64.ShapeCasts S5000x64
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S64x32, .f32⟩
  | .hbm, ⟨3, _⟩ => ⟨S64, .f32⟩
  | .hbm, ⟨4, _⟩ => ⟨S32x64, .f32⟩
  | .hbm, ⟨5, _⟩ => ⟨S32x64, .f32⟩
  | .hbm, ⟨6, _⟩ => ⟨S32, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S32x64, .f32⟩
  | .hbm, ⟨38, _⟩ => ⟨S100000x64, .f32⟩
  | .hbm, ⟨39, _⟩ => ⟨S32x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S64x32, .f32⟩
  | .hbm, ⟨76, _⟩ => ⟨S100000x32, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel program's run with its RESULT named.

  The program is four segments in a row: host operations, the first tiled launch, host operations, the second tiled
  launch.  The memory at each boundary is a fold from the launch memory (`Gen.W0` … `Gen.W4`): a host stretch applies
  its operations, a launch replaces its output array by what its write-backs leave and keeps every other buffer.  Every
  weakly fair execution ends with every unscoped buffer at the last boundary's contents `Gen.W4`; read at the result
  buffer that is the statement below, and read at an argument it is the launch contents (no segment writes one).
-/
import proofs.«135853_j34342558499454_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the eight argument arrays as launched. -/
theorem run_final : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.SageSpec.lean ====
/-
  The mathematics of one mean-aggregating graph layer, stated once, over the extended reals.

  For node features `x : N × C`, neighbour sums `agg : N × C`, in-degrees `deg : N`, weights
  `Wl, Wr : O × C` and a bias `b : O`, the layer's value at node `n`, output channel `o` is
      Σ_k (agg[n,k] / max(deg[n], 1)) · Wl[o,k]  +  Σ_k x[n,k] · Wr[o,k]  +  b[o]            (`layer`)
  One program computes it in that form.  The other is handed the reciprocals `inv[n] = 1 / max(deg[n], 1)`
  as a column and the weights transposed, and computes
      Σ_k (agg[n,k] · inv[n,0]) · WlT[k,o]  +  Σ_k x[n,k] · WrT[k,o]  +  b[0,o]                (`combine`)
  row block by row block.  The two agree because the clamp `max d 1` is at least one, hence never zero, and off
  zero the quotient of the extended reals is the product with the inverse — at the infinities too, so nothing has to
  be known about the sizes of `agg` or `deg` (`mul_recip_clamped`, `combine_eq_layer`).
  `combine` is also local in the rows: a block of rows of the result depends on the same rows of `agg`, `x`, `inv`
  and on all of the weights and the bias (`combine_rows`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- The float word `0x3F800000` (1.0) denotes the real number one. -/
theorem one_word : Ideal.ofBits .f32 0x3F800000#32 = 1 := by
  simp [Ideal.ofBits, Ideal.ieee, -EReal.coe_mul]; norm_num

/-- Multiplying by the reciprocal of a clamped degree is dividing by it.  `max d 1 ≥ 1 > 0` whatever `d` is, so the
    divisor is not zero, and then `1 / y = y⁻¹` and `a / y = a · y⁻¹` on all of the extended reals. -/
theorem mul_recip_clamped (a d : EReal) :
    a * Ideal.div (Ideal.ofBits .f32 0x3F800000#32) (max d (Ideal.ofBits .f32 0x3F800000#32))
      = Ideal.div a (max d (Ideal.ofBits .f32 0x3F800000#32)) := by
  rw [one_word]
  have h : max d 1 ≠ 0 := ne_of_gt (lt_of_lt_of_le zero_lt_one (le_max_right d 1))
  unfold Ideal.div
  rw [if_neg h, if_neg h, one_mul]

/-- The layer as the reference spells it: mean of the neighbour sums by a quotient, then the two linear maps and the bias. -/
def layer {N C O : ℕ} (agg x : (⟨2, ![N, C]⟩ : Shape).Idx → EReal) (deg : (⟨1, ![N]⟩ : Shape).Idx → EReal)
    (wl wr : (⟨2, ![O, C]⟩ : Shape).Idx → EReal) (b : (⟨1, ![O]⟩ : Shape).Idx → EReal) :
    (⟨2, ![N, O]⟩ : Shape).Idx → EReal := fun i =>
  let n : Fin N := i 0
  let o : Fin O := i 1
  (∑ k : Fin C, Ideal.div (agg (ix2 n k)) (max (deg (ix1 n)) (Ideal.ofBits .f32 0x3F800000#32)) * wl (ix2 o k))
    + (∑ k : Fin C, x (ix2 n k) * wr (ix2 o k)) + b (ix1 o)

/-- The same layer as the tiled program spells it: the reciprocal degree as an `N × 1` column multiplied in, the
    weights already transposed to `C × O`, the bias as a `1 × O` row. -/
def combine {N C O : ℕ} (agg x : (⟨2, ![N, C]⟩ : Shape).Idx → EReal) (inv : (⟨2, ![N, 1]⟩ : Shape).Idx → EReal)
    (wlT wrT : (⟨2, ![C, O]⟩ : Shape).Idx → EReal) (b : (⟨2, ![1, O]⟩ : Shape).Idx → EReal) :
    (⟨2, ![N, O]⟩ : Shape).Idx → EReal := fun i =>
  let n : Fin N := i 0
  let o : Fin O := i 1
  (∑ k : Fin C, (agg (ix2 n k) * inv (ix2 n 0)) * wlT (ix2 k o))
    + (∑ k : Fin C, x (ix2 n k) * wrT (ix2 k o)) + b (ix2 0 o)

/-- `layer` at the index with coordinates `(n, o)`. -/
theorem layer_apply {N C O : ℕ} (agg x : (⟨2, ![N, C]⟩ : Shape).Idx → EReal) (deg : (⟨1, ![N]⟩ : Shape).Idx → EReal)
    (wl wr : (⟨2, ![O, C]⟩ : Shape).Idx → EReal) (b : (⟨1, ![O]⟩ : Shape).Idx → EReal) (n : Fin N) (o : Fin O) :
    layer agg x deg wl wr b (ix2 n o)
      = (∑ k : Fin C, Ideal.div (agg (ix2 n k)) (max (deg (ix1 n)) (Ideal.ofBits .f32 0x3F800000#32)) * wl (ix2 o k))
        + (∑ k : Fin C, x (ix2 n k) * wr (ix2 o k)) + b (ix1 o) := rfl

/-- `combine` at the index with coordinates `(n, o)`. -/
theorem combine_apply {N C O : ℕ} (agg x : (⟨2, ![N, C]⟩ : Shape).Idx → EReal) (inv : (⟨2, ![N, 1]⟩ : Shape).Idx → EReal)
    (wlT wrT : (⟨2, ![C, O]⟩ : Shape).Idx → EReal) (b : (⟨2, ![1, O]⟩ : Shape).Idx → EReal) (n : Fin N) (o : Fin O) :
    combine agg x inv wlT wrT b (ix2 n o)
      = (∑ k : Fin C, (agg (ix2 n k) * inv (ix2 n 0)) * wlT (ix2 k o))
        + (∑ k : Fin C, x (ix2 n k) * wrT (ix2 k o)) + b (ix2 0 o) := rfl

/-- The rectifier against the float word of zero, elementwise. -/
def relu {S : Shape} (f : S.Idx → EReal) : S.Idx → EReal := fun i => max (f i) (Ideal.ofBits .f32 0x00000000#32)

/-- With the column holding the reciprocals of the clamped degrees, the weights transposed and the bias laid out as a
    row, the tiled spelling is the layer. -/
theorem combine_eq_layer {N C O : ℕ} (agg x : (⟨2, ![N, C]⟩ : Shape).Idx → EReal) (deg : (⟨1, ![N]⟩ : Shape).Idx → EReal)
    (wl wr : (⟨2, ![O, C]⟩ : Shape).Idx → EReal) (b : (⟨1, ![O]⟩ : Shape).Idx → EReal)
    (inv : (⟨2, ![N, 1]⟩ : Shape).Idx → EReal) (wlT wrT : (⟨2, ![C, O]⟩ : Shape).Idx → EReal)
    (bT : (⟨2, ![1, O]⟩ : Shape).Idx → EReal)
    (hinv : ∀ n : Fin N, inv (ix2 n 0)
      = Ideal.div (Ideal.ofBits .f32 0x3F800000#32) (max (deg (ix1 n)) (Ideal.ofBits .f32 0x3F800000#32)))
    (hwl : ∀ (k : Fin C) (o : Fin O), wlT (ix2 k o) = wl (ix2 o k))
    (hwr : ∀ (k : Fin C) (o : Fin O), wrT (ix2 k o) = wr (ix2 o k))
    (hb : ∀ o : Fin O, bT (ix2 0 o) = b (ix1 o)) :
    combine agg x inv wlT wrT bT = layer agg x deg wl wr b := by
  funext i
  obtain ⟨n, o, rfl⟩ : ∃ (n : Fin N) (o : Fin O), i = ix2 n o := ⟨i 0, i 1, eq_ix2 i⟩
  rw [combine_apply, layer_apply]
  simp only [hinv, hwl, hwr, hb, mul_recip_clamped]

/-- Rows of the result come from the same rows of the operands: if a block's operands are the rows `row p` of the
    whole arrays (and its weights and bias the whole ones), the block's value at `(p, o)` is the whole value at
    `(row p, o)`. -/
theorem combine_rows {N n C O : ℕ} (row : Fin n → Fin N)
    (A X : (⟨2, ![N, C]⟩ : Shape).Idx → EReal) (I : (⟨2, ![N, 1]⟩ : Shape).Idx → EReal)
    (WL WR : (⟨2, ![C, O]⟩ : Shape).Idx → EReal) (B : (⟨2, ![1, O]⟩ : Shape).Idx → EReal)
    (a x : (⟨2, ![n, C]⟩ : Shape).Idx → EReal) (iv : (⟨2, ![n, 1]⟩ : Shape).Idx → EReal)
    (wl wr : (⟨2, ![C, O]⟩ : Shape).Idx → EReal) (b : (⟨2, ![1, O]⟩ : Shape).Idx → EReal)
    (ha : ∀ (p : Fin n) (k : Fin C), a (ix2 p k) = A (ix2 (row p) k))
    (hx : ∀ (p : Fin n) (k : Fin C), x (ix2 p k) = X (ix2 (row p) k))
    (hi : ∀ p : Fin n, iv (ix2 p 0) = I (ix2 (row p) 0))
    (hwl : ∀ (k : Fin C) (o : Fin O), wl (ix2 k o) = WL (ix2 k o))
    (hwr : ∀ (k : Fin C) (o : Fin O), wr (ix2 k o) = WR (ix2 k o))
    (hb : ∀ o : Fin O, b (ix2 0 o) = B (ix2 0 o))
    (p : Fin n) (o : Fin O) :
    combine a x iv wl wr b (ix2 p o) = combine A X I WL WR B (ix2 (row p) o) := by
  rw [combine_apply, combine_apply]
  simp only [ha, hx, hi, hwl, hwr, hb]

end Cert.Sage

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Body0.lean ====
/-
  What the first layer's tile body computes from the blocks it loads.

  The body loads a 5000-row block of the neighbour sums, of the node features and of the reciprocal-degree column, and
  the whole (transposed) weights and bias row.  Its stored value is, at row `p` and channel `q` of the block,
      max( Σ_k (agg[p,k] · inv[p,0]) · WlT[k,q]  +  Σ_k x[p,k] · WrT[k,q]  +  b[0,q] , 0 )
  — the narrowing of the factors to a shorter float format is the identity on the extended reals, each matrix product
  into a zero accumulator is the plain sum over the contracted axis, and the two broadcasts read the column at its row and
  the bias row at its channel.
-/
import proofs.«135853_j34342558499454_2_alg».proof.Proof.Gen.KernelIdeal.Skeleton
import proofs.«135853_j34342558499454_2_alg».proof.Proof.SageSpec
import proofs.«135853_j34342558499454_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body0

open Cert.KernelIdeal Cert.KernelIdeal.Gen Idealize.ShloMosaic Idealize.ShloMosaic.ValueIdx
open scoped BigOperators

local notation "D0" => dot_S5000x32_S32x64_S5000x64_1_0_0_1_n_n

/-- The left operand's index of the product at `(i, ·)`: row `i 0` … -/
theorem lhs_0 (i : S5000x64.Idx) (q : (D0).contr.Idx) : ((D0).lhsIdx i q 0).val = (i 0).val := by
  unfold DotDims.lhsIdx
  rw [dif_neg (show ¬(0 : Fin S5000x32.rank) ∈ (D0).lhsBatch by decide), dif_pos (show (0 : Fin S5000x32.rank) ∈ (D0).lhsNonContracting by decide)]
  rfl
/-- … and the contracted position as its column. -/
theorem lhs_1 (i : S5000x64.Idx) (q : (D0).contr.Idx) : ((D0).lhsIdx i q 1).val = (q ⟨0, by decide⟩).val :=
  (D0).lhsIdx_val_of_single rfl i q
/-- The right operand's index: the contracted position as its row … -/
theorem rhs_0 (i : S5000x64.Idx) (q : (D0).contr.Idx) : ((D0).rhsIdx i q 0).val = (q ⟨0, by decide⟩).val :=
  (D0).rhsIdx_val_of_single rfl i q
/-- … and column `i 1`. -/
theorem rhs_1 (i : S5000x64.Idx) (q : (D0).contr.Idx) : ((D0).rhsIdx i q 1).val = (i 1).val := by
  unfold DotDims.rhsIdx
  rw [dif_neg (show ¬(1 : Fin S32x64.rank) ∈ (D0).rhsBatch by decide), dif_pos (show (1 : Fin S32x64.rank) ∈ (D0).rhsNonContracting by decide)]
  rfl

/-- A `[5000,32] × [32,64]` product into the zero accumulator, at `(p, q)`, is `Σ_k l[p,k] · r[k,q]`. -/
theorem matmul_apply {φ₁ φ₂ : FTy} (l : FVec Ideal S5000x32 φ₁) (r : FVec Ideal S32x64 φ₂) (p : Fin 5000) (q : Fin 64) :
    matmul D0 none l r (constant S5000x64 .f32 0x00000000#32) (ix2 p q) = ∑ k : Fin 32, l (ix2 p k) * r (ix2 k q) := by
  show FloatOps.matmul D0 none l r (constant S5000x64 .f32 0x00000000#32) (ix2 p q) = _
  rw [Ideal.matmul_constant_zero_apply, ← Equiv.sum_comp (ValueIdx.contrEquiv1 D0 32 rfl rfl).symm]
  refine Finset.sum_congr rfl fun k _ => ?_
  have hk := ValueIdx.contrEquiv1_symm_val D0 32 rfl rfl k
  have el : (D0).lhsIdx (ix2 p q) ((ValueIdx.contrEquiv1 D0 32 rfl rfl).symm k) = ix2 p k := funext fun a => Fin.ext (by
    match a with
    | ⟨0, _⟩ => exact lhs_0 _ _
    | ⟨1, _⟩ => exact (lhs_1 _ _).trans hk)
  have er : (D0).rhsIdx (ix2 p q) ((ValueIdx.contrEquiv1 D0 32 rfl rfl).symm k) = ix2 k q := funext fun a => Fin.ext (by
    match a with
    | ⟨0, _⟩ => exact (rhs_0 _ _).trans hk
    | ⟨1, _⟩ => exact rhs_1 _ _)
  rw [el, er]

/-- The body's stored value is the rectified `combine` of the blocks it loads. -/
theorem pay_eq (v0 : Vec Ideal S5000x32 .f32) (v2 : Vec Ideal S5000x1 .f32) (v7 : Vec Ideal S5000x32 .f32)
    (v9 v12 : Vec Ideal S32x64 .f32) (v18 : Vec Ideal S1x64 .f32) :
    k0_pay1 (F := Ideal) v0 v2 v7 v9 v12 v18
      = Sage.relu (Sage.combine (N := 5000) (C := 32) (O := 64) v0 v7 v2 v9 v12 v18) := by
  funext j
  obtain ⟨p, q, rfl⟩ : ∃ (p : Fin 5000) (q : Fin 64), j = ix2 p q := ⟨j 0, j 1, eq_ix2 j⟩
  unfold k0_pay1 Sage.relu
  rw [Sage.combine_apply]
  rw [maximumf_apply, addf_apply, addf_apply, matmul_apply, matmul_apply, broadcastTo_1b_ab_apply]
  simp only [truncf_apply, mulf_apply, shapeCast_self, Cert.Lib.Keepdims.broadcastTo_a1_ab_apply, broadcast_apply,
    Ideal.ofBits_def]

end Cert.KernelIdeal.Body0

end
-- ==== Proof.Tile0.lean ====
/-
  From tiles to the array, first layer.

  The launch runs the body at 20 grid points; point `t` works on rows `5000·t … 5000·t + 4999` of the neighbour sums, the
  node features, the reciprocal-degree column and the result, and on the whole weights and bias at every point.  Since
  `combine` is local in the rows, what point `t` writes back is rows `5000·t …` of ONE whole-array function, the rectified
  `combine` of the arrays as the launch finds them; the 20 row blocks tile the 100000 rows (row `r` lies in block
  `r / 5000`), so after the launch the result array is that function.  All of it is stated at arbitrary contents `V` of
  the buffers at the launch's entry.
-/
import proofs.«135853_j34342558499454_2_alg».proof.Proof.Gen.KernelIdeal.Frame
import proofs.«135853_j34342558499454_2_alg».proof.Proof.Body0
import Idealize.ShloMosaic.Lib.Pipeline.Value

set_option maxRecDepth 16384

noncomputable section

namespace Cert.KernelIdeal.Tile0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The first layer's activations as one function of the arrays the launch finds. -/
def G (c : Dev nD) : S100000x64.Idx → EReal :=
  Sage.relu (Sage.combine (N := 100000) (C := 32) (O := 64)
    (V c main_v22) (V c main_arg0) (V c main_v12) (V c main_v23) (V c main_v24) (V c main_v25))

/-- The printed index maps over the grid: the four row-tiled windows sit at block row `t`, column block 0; the weights
    and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000·t + p` of the array. -/
def row (t : Fin cfg0.N) (p : Fin 5000) : Fin 100000 :=
  ⟨t.val * 5000 + p.val, by have ht : t.val < 20 := t.isLt; have hp := p.isLt; omega⟩

/-- The neighbour sums' block at `t`. -/
theorem read0 (c : Dev nD) (t : Fin cfg0.N) (p : Fin 5000) (k : Fin 32) :
    iblk0 V c 0 t (ix2 p k) = V c main_v22 (ix2 (row t p) k) := by
  show V c main_v22 (((cfg0.win 0).blk t).view.emb (ix2 p k)) = _
  refine congrArg (V c main_v22) (funext fun a => Fin.ext ?_)
  obtain ⟨e00, e01, -⟩ := idx_facts t
  match a with
  | ⟨0, _⟩ => show win0_0.index t (0 : Fin 2) * 5000 + 1 * p.val = t.val * 5000 + p.val; omega
  | ⟨1, _⟩ => show win0_0.index t (1 : Fin 2) * 32 + 1 * k.val = k.val; omega

/-- The node features' block at `t`. -/
theorem read1 (c : Dev nD) (t : Fin cfg0.N) (p : Fin 5000) (k : Fin 32) :
    iblk0 V c 1 t (ix2 p k) = V c main_arg0 (ix2 (row t p) k) := by
  show V c main_arg0 (((cfg0.win 1).blk t).view.emb (ix2 p k)) = _
  refine congrArg (V c main_arg0) (funext fun a => Fin.ext ?_)
  obtain ⟨-, -, e10, e11, -⟩ := idx_facts t
  match a with
  | ⟨0, _⟩ => show win0_1.index t (0 : Fin 2) * 5000 + 1 * p.val = t.val * 5000 + p.val; omega
  | ⟨1, _⟩ => show win0_1.index t (1 : Fin 2) * 32 + 1 * k.val = k.val; omega

/-- The reciprocal-degree column's block at `t`. -/
theorem read2 (c : Dev nD) (t : Fin cfg0.N) (p : Fin 5000) :
    iblk0 V c 2 t (ix2 p 0) = V c main_v12 (ix2 (row t p) 0) := by
  show V c main_v12 (((cfg0.win 2).blk t).view.emb (ix2 p 0)) = _
  refine congrArg (V c main_v12) (funext fun a => Fin.ext ?_)
  obtain ⟨-, -, -, -, e20, e21, -⟩ := idx_facts t
  match a with
  | ⟨0, _⟩ => show win0_2.index t (0 : Fin 2) * 5000 + 1 * p.val = t.val * 5000 + p.val; omega
  | ⟨1, _⟩ => show win0_2.index t (1 : Fin 2) * 1 + 1 * 0 = 0; omega

/-- The first weight matrix, whole at every point. -/
theorem read3 (c : Dev nD) (t : Fin cfg0.N) (k : Fin 32) (o : Fin 64) :
    iblk0 V c 3 t (ix2 k o) = V c main_v23 (ix2 k o) := by
  show V c main_v23 (((cfg0.win 3).blk t).view.emb (ix2 k o)) = _
  refine congrArg (V c main_v23) (funext fun a => Fin.ext ?_)
  obtain ⟨-, -, -, -, -, -, e30, e31, -⟩ := idx_facts t
  match a with
  | ⟨0, _⟩ => show win0_3.index t (0 : Fin 2) * 32 + 1 * k.val = k.val; omega
  | ⟨1, _⟩ => show win0_3.index t (1 : Fin 2) * 64 + 1 * o.val = o.val; omega

/-- The second weight matrix, whole at every point. -/
theorem read4 (c : Dev nD) (t : Fin cfg0.N) (k : Fin 32) (o : Fin 64) :
    iblk0 V c 4 t (ix2 k o) = V c main_v24 (ix2 k o) := by
  show V c main_v24 (((cfg0.win 4).blk t).view.emb (ix2 k o)) = _
  refine congrArg (V c main_v24) (funext fun a => Fin.ext ?_)
  obtain ⟨-, -, -, -, -, -, -, -, e40, e41, -⟩ := idx_facts t
  match a with
  | ⟨0, _⟩ => show win0_4.index t (0 : Fin 2) * 32 + 1 * k.val = k.val; omega
  | ⟨1, _⟩ => show win0_4.index t (1 : Fin 2) * 64 + 1 * o.val = o.val; omega

/-- The bias row, whole at every point. -/
theorem read5 (c : Dev nD) (t : Fin cfg0.N) (o : Fin 64) :
    iblk0 V c 5 t (ix2 0 o) = V c main_v25 (ix2 0 o) := by
  show V c main_v25 (((cfg0.win 5).blk t).view.emb (ix2 0 o)) = _
  refine congrArg (V c main_v25) (funext fun a => Fin.ext ?_)
  obtain ⟨-, -, -, -, -, -, -, -, -, -, e50, e51, -⟩ := idx_facts t
  match a with
  | ⟨0, _⟩ => show win0_5.index t (0 : Fin 2) * 1 + 1 * 0 = 0; omega
  | ⟨1, _⟩ => show win0_5.index t (1 : Fin 2) * 64 + 1 * o.val = o.val; omega

/-- Where point `t`'s result block sits in the array. -/
theorem emb6 (t : Fin cfg0.N) (p : Fin 5000) (q : Fin 64) :
    ((cfg0.win 6).blk t).view.emb (ix2 p q) = ix2 (row t p) q := by
  funext a
  apply Fin.ext
  obtain ⟨-, -, -, -, -, -, -, -, -, -, -, -, e60, e61⟩ := idx_facts t
  match a with
  | ⟨0, _⟩ => show win0_6.index t (0 : Fin 2) * 5000 + 1 * p.val = t.val * 5000 + p.val; omega
  | ⟨1, _⟩ => show win0_6.index t (1 : Fin 2) * 64 + 1 * q.val = q.val; omega

/-- WHAT POINT `t` WRITES BACK is block `t` of `G`. -/
theorem flushed (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x32) hz, View.ld_unit_zero (S := S5000x1) hz,
    View.ld_unit_zero (S := S32x64) hz, View.ld_unit_zero (S := S1x64) hz]
  rw [Body0.pay_eq]
  funext j
  obtain ⟨p, q, rfl⟩ : ∃ (p : Fin 5000) (q : Fin 64), j = ix2 p q := ⟨j 0, j 1, eq_ix2 j⟩
  show Sage.relu (Sage.combine (N := 5000) (C := 32) (O := 64) (iblk0 V c 0 t) (iblk0 V c 1 t) (iblk0 V c 2 t)
      (iblk0 V c 3 t) (iblk0 V c 4 t) (iblk0 V c 5 t)) (ix2 p q) = G V c (((cfg0.win 6).blk t).view.emb (ix2 p q))
  rw [emb6 t p q]
  unfold G Sage.relu
  exact congrArg (fun z => max z (Ideal.ofBits .f32 0x00000000#32))
    (Sage.combine_rows (row t) (V c main_v22) (V c main_arg0) (V c main_v12) (V c main_v23) (V c main_v24) (V c main_v25)
      (iblk0 V c 0 t) (iblk0 V c 1 t) (iblk0 V c 2 t) (iblk0 V c 3 t) (iblk0 V c 4 t) (iblk0 V c 5 t)
      (read0 V c t) (read1 V c t) (read2 V c t) (read3 V c t) (read4 V c t) (read5 V c t) p q)

/-- An index of the result array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v26).slice (win0_6.rect t)).set ↔ _
  rw [View.set_slice_whole, Rect.mem_set_unit]
  exact Iff.rfl

/-- The row blocks tile the array: row `r` lies in the block of point `r / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hlt : (i 0).val / 5000 < 20 := by omega
  refine ⟨⟨(i 0).val / 5000, hlt⟩, flush0_6 _, ?_⟩
  rw [mem_blk]
  have e60 : win0_6.index ⟨(i 0).val / 5000, hlt⟩ (0 : Fin 2) = (i 0).val / 5000 := (idx_facts ⟨(i 0).val / 5000, hlt⟩).2.2.2.2.2.2.2.2.2.2.2.2.1
  have e61 : win0_6.index ⟨(i 0).val / 5000, hlt⟩ (1 : Fin 2) = 0 := (idx_facts ⟨(i 0).val / 5000, hlt⟩).2.2.2.2.2.2.2.2.2.2.2.2.2
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    omega
  | ⟨1, _⟩ =>
    show win0_6.index ⟨(i 0).val / 5000, hlt⟩ (1 : Fin 2) * 64 ≤ (i 1).val ∧ (i 1).val < win0_6.index ⟨(i 0).val / 5000, hlt⟩ (1 : Fin 2) * 64 + 64
    omega

/-- THE ARRAY after the launch: `G` of the arrays the launch found. -/
theorem final (c : Dev nD) : (dat0 V c).arrAt 6 cfg0.N = G V c :=
  (dat0 V c).arrAt_eq_of_cover 6 (G V c) (fun t _ => flushed V c t) cover

end Cert.KernelIdeal.Tile0

end
-- ==== Proof.Body1.lean ====
/-
  What the second layer's tile body computes from the blocks it loads: the same `combine` as the first layer's, now with
  64 input channels and 32 output channels, and with no rectifier after it.  At row `p`, channel `q` of the block:
      Σ_k (agg[p,k] · inv[p,0]) · WlT[k,q]  +  Σ_k h[p,k] · WrT[k,q]  +  b[0,q].
-/
import proofs.«135853_j34342558499454_2_alg».proof.Proof.Gen.KernelIdeal.Skeleton
import proofs.«135853_j34342558499454_2_alg».proof.Proof.SageSpec
import proofs.«135853_j34342558499454_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body1

open Cert.KernelIdeal Cert.KernelIdeal.Gen Idealize.ShloMosaic Idealize.ShloMosaic.ValueIdx
open scoped BigOperators

local notation "D1" => dot_S5000x64_S64x32_S5000x32_1_0_0_1_n_n

/-- The left operand's index of the product at `(i, ·)`: row `i 0` … -/
theorem lhs_0 (i : S5000x32.Idx) (q : (D1).contr.Idx) : ((D1).lhsIdx i q 0).val = (i 0).val := by
  unfold DotDims.lhsIdx
  rw [dif_neg (show ¬(0 : Fin S5000x64.rank) ∈ (D1).lhsBatch by decide), dif_pos (show (0 : Fin S5000x64.rank) ∈ (D1).lhsNonContracting by decide)]
  rfl
/-- … and the contracted position as its column. -/
theorem lhs_1 (i : S5000x32.Idx) (q : (D1).contr.Idx) : ((D1).lhsIdx i q 1).val = (q ⟨0, by decide⟩).val :=
  (D1).lhsIdx_val_of_single rfl i q
/-- The right operand's index: the contracted position as its row … -/
theorem rhs_0 (i : S5000x32.Idx) (q : (D1).contr.Idx) : ((D1).rhsIdx i q 0).val = (q ⟨0, by decide⟩).val :=
  (D1).rhsIdx_val_of_single rfl i q
/-- … and column `i 1`. -/
theorem rhs_1 (i : S5000x32.Idx) (q : (D1).contr.Idx) : ((D1).rhsIdx i q 1).val = (i 1).val := by
  unfold DotDims.rhsIdx
  rw [dif_neg (show ¬(1 : Fin S64x32.rank) ∈ (D1).rhsBatch by decide), dif_pos (show (1 : Fin S64x32.rank) ∈ (D1).rhsNonContracting by decide)]
  rfl

/-- A `[5000,64] × [64,32]` product into the zero accumulator, at `(p, q)`, is `Σ_k l[p,k] · r[k,q]`. -/
theorem matmul_apply {φ₁ φ₂ : FTy} (l : FVec Ideal S5000x64 φ₁) (r : FVec Ideal S64x32 φ₂) (p : Fin 5000) (q : Fin 32) :
    matmul D1 none l r (constant S5000x32 .f32 0x00000000#32) (ix2 p q) = ∑ k : Fin 64, l (ix2 p k) * r (ix2 k q) := by
  show FloatOps.matmul D1 none l r (constant S5000x32 .f32 0x00000000#32) (ix2 p q) = _
  rw [Ideal.matmul_constant_zero_apply, ← Equiv.sum_comp (ValueIdx.contrEquiv1 D1 64 rfl rfl).symm]
  refine Finset.sum_congr rfl fun k _ => ?_
  have hk := ValueIdx.contrEquiv1_symm_val D1 64 rfl rfl k
  have el : (D1).lhsIdx (ix2 p q) ((ValueIdx.contrEquiv1 D1 64 rfl rfl).symm k) = ix2 p k := funext fun a => Fin.ext (by
    match a with
    | ⟨0, _⟩ => exact lhs_0 _ _
    | ⟨1, _⟩ => exact (lhs_1 _ _).trans hk)
  have er : (D1).rhsIdx (ix2 p q) ((ValueIdx.contrEquiv1 D1 64 rfl rfl).symm k) = ix2 k q := funext fun a => Fin.ext (by
    match a with
    | ⟨0, _⟩ => exact (rhs_0 _ _).trans hk
    | ⟨1, _⟩ => exact rhs_1 _ _)
  rw [el, er]

/-- The body's stored value is the `combine` of the blocks it loads. -/
theorem pay_eq (v0 : Vec Ideal S5000x64 .f32) (v2 : Vec Ideal S5000x1 .f32) (v7 : Vec Ideal S5000x64 .f32)
    (v10 v13 : Vec Ideal S64x32 .f32) (v19 : Vec Ideal S1x32 .f32) :
    k1_pay1 (F := Ideal) v0 v2 v7 v10 v13 v19
      = Sage.combine (N := 5000) (C := 64) (O := 32) v0 v7 v2 v10 v13 v19 := by
  funext j
  obtain ⟨p, q, rfl⟩ : ∃ (p : Fin 5000) (q : Fin 32), j = ix2 p q := ⟨j 0, j 1, eq_ix2 j⟩
  unfold k1_pay1
  rw [Sage.combine_apply]
  rw [addf_apply, addf_apply, matmul_apply, matmul_apply, broadcastTo_1b_ab_apply]
  simp only [truncf_apply, mulf_apply, shapeCast_self, Cert.Lib.Keepdims.broadcastTo_a1_ab_apply]

end Cert.KernelIdeal.Body1

end
-- ==== Proof.Tile1.lean ====
/-
  From tiles to the array, second layer.

  As for the first launch: 20 grid points, point `t` on rows `5000·t … 5000·t + 4999` of the second neighbour sums, of
  the first layer's activations, of the reciprocal-degree column and of the result, the whole weights and bias at every
  point.  What point `t` writes back is rows `5000·t …` of the `combine` (no rectifier here) of the arrays as the launch
  finds them, and the 20 row blocks tile the 100000 rows; so after the launch the result array is that function.  Stated at
  arbitrary contents `V` of the buffers at the launch's entry.
-/
import proofs.«135853_j34342558499454_2_alg».proof.Proof.Gen.KernelIdeal.Frame
import proofs.«135853_j34342558499454_2_alg».proof.Proof.Body1
import Idealize.ShloMosaic.Lib.Pipeline.Value

set_option maxRecDepth 16384

noncomputable section

namespace Cert.KernelIdeal.Tile1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The second layer's output as one function of the arrays the launch finds. -/
def G (c : Dev nD) : S100000x32.Idx → EReal :=
  Sage.combine (N := 100000) (C := 64) (O := 32)
    (V c main_v36) (V c main_v26) (V c main_v12) (V c main_v37) (V c main_v38) (V c main_v39)

/-- The printed index maps over the grid: the four row-tiled windows sit at block row `t`, column block 0; the weights
    and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `5000·t + p` of the array. -/
def row (t : Fin cfg1.N) (p : Fin 5000) : Fin 100000 :=
  ⟨t.val * 5000 + p.val, by have ht : t.val < 20 := t.isLt; have hp := p.isLt; omega⟩

/-- The second neighbour sums' block at `t`. -/
theorem read0 (c : Dev nD) (t : Fin cfg1.N) (p : Fin 5000) (k : Fin 64) :
    iblk1 V c 0 t (ix2 p k) = V c main_v36 (ix2 (row t p) k) := by
  show V c main_v36 (((cfg1.win 0).blk t).view.emb (ix2 p k)) = _
  refine congrArg (V c main_v36) (funext fun a => Fin.ext ?_)
  obtain ⟨e00, e01, -⟩ := idx_facts t
  match a with
  | ⟨0, _⟩ => show win1_0.index t (0 : Fin 2) * 5000 + 1 * p.val = t.val * 5000 + p.val; omega
  | ⟨1, _⟩ => show win1_0.index t (1 : Fin 2) * 64 + 1 * k.val = k.val; omega

/-- The first layer's activations' block at `t`. -/
theorem read1 (c : Dev nD) (t : Fin cfg1.N) (p : Fin 5000) (k : Fin 64) :
    iblk1 V c 1 t (ix2 p k) = V c main_v26 (ix2 (row t p) k) := by
  show V c main_v26 (((cfg1.win 1).blk t).view.emb (ix2 p k)) = _
  refine congrArg (V c main_v26) (funext fun a => Fin.ext ?_)
  obtain ⟨-, -, e10, e11, -⟩ := idx_facts t
  match a with
  | ⟨0, _⟩ => show win1_1.index t (0 : Fin 2) * 5000 + 1 * p.val = t.val * 5000 + p.val; omega
  | ⟨1, _⟩ => show win1_1.index t (1 : Fin 2) * 64 + 1 * k.val = k.val; omega

/-- The reciprocal-degree column's block at `t`. -/
theorem read2 (c : Dev nD) (t : Fin cfg1.N) (p : Fin 5000) :
    iblk1 V c 2 t (ix2 p 0) = V c main_v12 (ix2 (row t p) 0) := by
  show V c main_v12 (((cfg1.win 2).blk t).view.emb (ix2 p 0)) = _
  refine congrArg (V c main_v12) (funext fun a => Fin.ext ?_)
  obtain ⟨-, -, -, -, e20, e21, -⟩ := idx_facts t
  match a with
  | ⟨0, _⟩ => show win1_2.index t (0 : Fin 2) * 5000 + 1 * p.val = t.val * 5000 + p.val; omega
  | ⟨1, _⟩ => show win1_2.index t (1 : Fin 2) * 1 + 1 * 0 = 0; omega

/-- The first weight matrix, whole at every point. -/
theorem read3 (c : Dev nD) (t : Fin cfg1.N) (k : Fin 64) (o : Fin 32) :
    iblk1 V c 3 t (ix2 k o) = V c main_v37 (ix2 k o) := by
  show V c main_v37 (((cfg1.win 3).blk t).view.emb (ix2 k o)) = _
  refine congrArg (V c main_v37) (funext fun a => Fin.ext ?_)
  obtain ⟨-, -, -, -, -, -, e30, e31, -⟩ := idx_facts t
  match a with
  | ⟨0, _⟩ => show win1_3.index t (0 : Fin 2) * 64 + 1 * k.val = k.val; omega
  | ⟨1, _⟩ => show win1_3.index t (1 : Fin 2) * 32 + 1 * o.val = o.val; omega

/-- The second weight matrix, whole at every point. -/
theorem read4 (c : Dev nD) (t : Fin cfg1.N) (k : Fin 64) (o : Fin 32) :
    iblk1 V c 4 t (ix2 k o) = V c main_v38 (ix2 k o) := by
  show V c main_v38 (((cfg1.win 4).blk t).view.emb (ix2 k o)) = _
  refine congrArg (V c main_v38) (funext fun a => Fin.ext ?_)
  obtain ⟨-, -, -, -, -, -, -, -, e40, e41, -⟩ := idx_facts t
  match a with
  | ⟨0, _⟩ => show win1_4.index t (0 : Fin 2) * 64 + 1 * k.val = k.val; omega
  | ⟨1, _⟩ => show win1_4.index t (1 : Fin 2) * 32 + 1 * o.val = o.val; omega

/-- The bias row, whole at every point. -/
theorem read5 (c : Dev nD) (t : Fin cfg1.N) (o : Fin 32) :
    iblk1 V c 5 t (ix2 0 o) = V c main_v39 (ix2 0 o) := by
  show V c main_v39 (((cfg1.win 5).blk t).view.emb (ix2 0 o)) = _
  refine congrArg (V c main_v39) (funext fun a => Fin.ext ?_)
  obtain ⟨-, -, -, -, -, -, -, -, -, -, e50, e51, -⟩ := idx_facts t
  match a with
  | ⟨0, _⟩ => show win1_5.index t (0 : Fin 2) * 1 + 1 * 0 = 0; omega
  | ⟨1, _⟩ => show win1_5.index t (1 : Fin 2) * 32 + 1 * o.val = o.val; omega

/-- Where point `t`'s result block sits in the array. -/
theorem emb6 (t : Fin cfg1.N) (p : Fin 5000) (q : Fin 32) :
    ((cfg1.win 6).blk t).view.emb (ix2 p q) = ix2 (row t p) q := by
  funext a
  apply Fin.ext
  obtain ⟨-, -, -, -, -, -, -, -, -, -, -, -, e60, e61⟩ := idx_facts t
  match a with
  | ⟨0, _⟩ => show win1_6.index t (0 : Fin 2) * 5000 + 1 * p.val = t.val * 5000 + p.val; omega
  | ⟨1, _⟩ => show win1_6.index t (1 : Fin 2) * 32 + 1 * q.val = q.val; omega

/-- WHAT POINT `t` WRITES BACK is block `t` of `G`. -/
theorem flushed (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz,
    View.ld_unit_zero (S := S64x32) hz, View.ld_unit_zero (S := S1x32) hz]
  rw [Body1.pay_eq]
  funext j
  obtain ⟨p, q, rfl⟩ : ∃ (p : Fin 5000) (q : Fin 32), j = ix2 p q := ⟨j 0, j 1, eq_ix2 j⟩
  show Sage.combine (N := 5000) (C := 64) (O := 32) (iblk1 V c 0 t) (iblk1 V c 1 t) (iblk1 V c 2 t)
      (iblk1 V c 3 t) (iblk1 V c 4 t) (iblk1 V c 5 t) (ix2 p q) = G V c (((cfg1.win 6).blk t).view.emb (ix2 p q))
  rw [emb6 t p q]
  unfold G
  exact Sage.combine_rows (row t) (V c main_v36) (V c main_v26) (V c main_v12) (V c main_v37) (V c main_v38) (V c main_v39)
      (iblk1 V c 0 t) (iblk1 V c 1 t) (iblk1 V c 2 t) (iblk1 V c 3 t) (iblk1 V c 4 t) (iblk1 V c 5 t)
      (read0 V c t) (read1 V c t) (read2 V c t) (read3 V c t) (read4 V c t) (read5 V c t) p q

/-- An index of the result array is in point `t`'s block iff each coordinate is in the block's range on its axis. -/
theorem mem_blk (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v40).slice (win1_6.rect t)).set ↔ _
  rw [View.set_slice_whole, Rect.mem_set_unit]
  exact Iff.rfl

/-- The row blocks tile the array: row `r` lies in the block of point `r / 5000`. -/
theorem cover (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hlt : (i 0).val / 5000 < 20 := by omega
  refine ⟨⟨(i 0).val / 5000, hlt⟩, flush1_6 _, ?_⟩
  rw [mem_blk]
  have e60 : win1_6.index ⟨(i 0).val / 5000, hlt⟩ (0 : Fin 2) = (i 0).val / 5000 := (idx_facts ⟨(i 0).val / 5000, hlt⟩).2.2.2.2.2.2.2.2.2.2.2.2.1
  have e61 : win1_6.index ⟨(i 0).val / 5000, hlt⟩ (1 : Fin 2) = 0 := (idx_facts ⟨(i 0).val / 5000, hlt⟩).2.2.2.2.2.2.2.2.2.2.2.2.2
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    omega
  | ⟨1, _⟩ =>
    show win1_6.index ⟨(i 0).val / 5000, hlt⟩ (1 : Fin 2) * 32 ≤ (i 1).val ∧ (i 1).val < win1_6.index ⟨(i 0).val / 5000, hlt⟩ (1 : Fin 2) * 32 + 32
    omega

/-- THE ARRAY after the launch: `G` of the arrays the launch found. -/
theorem final (c : Dev nD) : (dat1 V c).arrAt 6 cfg1.N = G V c :=
  (dat1 V c).arrAt_eq_of_cover 6 (G V c) (fun t _ => flushed V c t) cover

end Cert.KernelIdeal.Tile1

end
-- ==== Proof.KernelValue.lean ====
/-
  The idealized kernel program's result as a function of its arguments.

  Around the two tiled launches the program works on the host: it splits the edge list into source and destination rows,
  counts the in-degrees (a scatter-add of ones along the destinations), takes the reciprocals of the clamped degrees
  and casts them to a column, sums the neighbours' rows (a gather along the sources, a scatter-add along the
  destinations), transposes the weights and casts the biases to rows.  Those pieces are named here (`srcRow`, `dstRow`,
  `deg`, `invCol`, `agg32`, `agg64`) and never opened: the gather and scatter-add are the same operations in the
  reference, so only their operands matter.

  Reading each launch operand through the host operations before it, and each launch's result array as the function the
  tiles assemble, the result buffer ends at
      layer (agg64 h) h deg W2l W2r b2      with   h = relu (layer (agg32 x) x deg W1l W1r b1),
  where the tiled spelling `combine` of each launch becomes `layer` because the column holds `1 / max(deg, 1)`, the
  launch's weights are the transposes and its bias the row cast.
-/
import proofs.«135853_j34342558499454_2_alg».proof.Proof.Gen.KernelIdeal.Frame
import proofs.«135853_j34342558499454_2_alg».proof.Proof.Tile0
import proofs.«135853_j34342558499454_2_alg».proof.Proof.Tile1
import proofs.«135853_j34342558499454_2_alg».proof.Proof.SageSpec
import proofs.«135853_j34342558499454_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

/-! ## The host pieces, named -/

/-- The edges' source node ids: row 0 of the edge list. -/
def srcRow (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' destination node ids: row 1 of the edge list. -/
def dstRow (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The source ids as the gather's index column, a negative id counted from the end. -/
def srcCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination ids as the scatter's index column. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- Neighbour sums of 32-channel rows: gather along the sources, scatter-add along the destinations into zeros. -/
def agg32 (x : (⟨S100000x32, .f32⟩ : BufTy).Contents (Elt Ideal)) (s d : (⟨S1600000, .i32⟩ : BufTy).Contents (Elt Ideal)) :
    (⟨S100000x32, .f32⟩ : BufTy).Contents (Elt Ideal) :=
  Host.scatterAdd scatter_S100000x32_S1600000x1_S1600000x32_1_0_0_1
    (broadcastInDim S100000x32 ![] bcast_S_S100000x32 (constant (F := Ideal) S_ .f32 0x00000000#32)) (dstCol d)
    (Host.gather gather_S100000x32_S1600000x1_S1600000x32_1_0_n_n_0_1_132 x (srcCol s))

/-- Neighbour sums of 64-channel rows. -/
def agg64 (h : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32)) (dstCol d)
    (Host.gather gather_S100000x64_S1600000x1_S1600000x64_1_0_n_n_0_1_164 h (srcCol s))

/-- In-degrees: a one per edge scatter-added along the destinations into zeros. -/
def deg (d : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32)) (dstCol d)
    (broadcastInDim S1600000 ![] bcast_S_S1600000 (constant (F := Ideal) S_ .f32 0x3F800000#32))

/-- The reciprocals of the clamped degrees, as a column. -/
def invCol (d : (⟨S1600000, .i32⟩ : BufTy).Contents (Elt Ideal)) : (⟨S100000x1, .f32⟩ : BufTy).Contents (Elt Ideal) :=
  shapeCast S100000x1
    (Host.divf (broadcastInDim S100000 ![] bcast_S_S100000 (constant (F := Ideal) S_ .f32 0x3F800000#32))
      (maximumf (deg d) (broadcastInDim S100000 ![] bcast_S_S100000 (constant (F := Ideal) S_ .f32 0x3F800000#32))))
    shapeCasts_S100000_S100000x1

/-! ## The launch operands' layouts at an index -/

/-- A float word splatted over the nodes reads as that word's value at every node. -/
theorem splat_apply (w : BitVec 32) (i : S100000.Idx) :
    broadcastInDim S100000 ![] bcast_S_S100000 (constant (F := Ideal) S_ .f32 w) i = Ideal.ofBits .f32 w :=
  broadcastInDim_apply _ bcast_S_S100000 (constant (F := Ideal) S_ .f32 w) i (fun a => a.elim0) (fun a => a.elim0)

/-- The host's quotient of two arrays, at an index, is the quotient of the entries. -/
theorem hostDivf_apply {s : Shape} (a b : FVec Ideal s .f32) (i : s.Idx) : Host.divf a b i = Ideal.div (a i) (b i) := rfl

/-- Row `n` of the column is one over the clamped degree of node `n`. -/
theorem invCol_apply (d : (⟨S1600000, .i32⟩ : BufTy).Contents (Elt Ideal)) (n : Fin 100000) :
    invCol d (ix2 n 0) = Ideal.div (Ideal.ofBits .f32 0x3F800000#32) (max (deg d (ix1 n)) (Ideal.ofBits .f32 0x3F800000#32)) := by
  unfold invCol
  rw [Cert.Lib.Keepdims.shapeCast_a_a1_apply, hostDivf_apply, maximumf_apply, splat_apply]

/-- A `[64, 32]` matrix transposed, at `(k, o)`, is the matrix at `(o, k)`. -/
theorem transpose_64x32_apply (x : (⟨S64x32, .f32⟩ : BufTy).Contents (Elt Ideal)) (k : Fin 32) (o : Fin 64) :
    transpose S32x64 [1, 0] x transposes_S64x32_S32x64_1_0 (ix2 k o) = x (ix2 o k) :=
  transpose_apply [1, 0] x transposes_S64x32_S32x64_1_0 (ix2 k o) (ix2 o k) (fun b => match b with
    | ⟨0, _⟩ => rfl
    | ⟨1, _⟩ => rfl)

/-- A `[32, 64]` matrix transposed, at `(k, o)`, is the matrix at `(o, k)`. -/
theorem transpose_32x64_apply (x : (⟨S32x64, .f32⟩ : BufTy).Contents (Elt Ideal)) (k : Fin 64) (o : Fin 32) :
    transpose S64x32 [1, 0] x transposes_S32x64_S64x32_1_0 (ix2 k o) = x (ix2 o k) :=
  transpose_apply [1, 0] x transposes_S32x64_S64x32_1_0 (ix2 k o) (ix2 o k) (fun b => match b with
    | ⟨0, _⟩ => rfl
    | ⟨1, _⟩ => rfl)

variable (m : (ℓ : Loc nD τ sig) → Buf (Elt Ideal) ℓ) (ρ : Dev nD → PrngReg)

/-! ## The first launch's operands, read through the host operations before it -/

theorem v1_eq (c : Dev nD) : W1 m ρ c (Proc.devRef .tc main_v1) = srcRow (m ((c : Thread nD τ).loc main_arg7)) := by
  show StableHlo.after hostOps0 (W0 m ρ c) (Proc.devRef .tc main_v1) = _
  after_results <;> rfl

theorem v3_eq (c : Dev nD) : W1 m ρ c (Proc.devRef .tc main_v3) = dstRow (m ((c : Thread nD τ).loc main_arg7)) := by
  show StableHlo.after hostOps0 (W0 m ρ c) (Proc.devRef .tc main_v3) = _
  after_results <;> rfl

set_option maxHeartbeats 8000000 in
theorem v22_eq (c : Dev nD) : V1 m ρ c main_v22
    = agg32 (m ((c : Thread nD τ).loc main_arg0)) (srcRow (m ((c : Thread nD τ).loc main_arg7))) (dstRow (m ((c : Thread nD τ).loc main_arg7))) := by
  show StableHlo.after hostOps0 (W0 m ρ c) (Proc.devRef .tc main_v22) = _
  after_results <;> rfl

set_option maxHeartbeats 8000000 in
theorem v12_eq (c : Dev nD) : V1 m ρ c main_v12 = invCol (dstRow (m ((c : Thread nD τ).loc main_arg7))) := by
  show StableHlo.after hostOps0 (W0 m ρ c) (Proc.devRef .tc main_v12) = _
  after_results <;> rfl

set_option maxHeartbeats 8000000 in
theorem v23_eq (c : Dev nD) : V1 m ρ c main_v23
    = transpose S32x64 [1, 0] (m ((c : Thread nD τ).loc main_arg1)) transposes_S64x32_S32x64_1_0 := by
  show StableHlo.after hostOps0 (W0 m ρ c) (Proc.devRef .tc main_v23) = _
  after_results <;> rfl

set_option maxHeartbeats 8000000 in
theorem v24_eq (c : Dev nD) : V1 m ρ c main_v24
    = transpose S32x64 [1, 0] (m ((c : Thread nD τ).loc main_arg2)) transposes_S64x32_S32x64_1_0 := by
  show StableHlo.after hostOps0 (W0 m ρ c) (Proc.devRef .tc main_v24) = _
  after_results <;> rfl

set_option maxHeartbeats 8000000 in
theorem v25_eq (c : Dev nD) : V1 m ρ c main_v25 = shapeCast S1x64 (m ((c : Thread nD τ).loc main_arg3)) shapeCasts_S64_S1x64 := by
  show StableHlo.after hostOps0 (W0 m ρ c) (Proc.devRef .tc main_v25) = _
  after_results <;> rfl

set_option maxHeartbeats 8000000 in
theorem arg0_eq (c : Dev nD) : V1 m ρ c main_arg0 = m ((c : Thread nD τ).loc main_arg0) := by
  show StableHlo.after hostOps0 (W0 m ρ c) (Proc.devRef .tc main_arg0) = _
  after_results <;> rfl

/-! ## The result, layer by layer, as functions of the arguments -/

/-- The first layer's activations. -/
def hidden (x0 : (⟨S100000x32, .f32⟩ : BufTy).Contents (Elt Ideal)) (x1 x2 : (⟨S64x32, .f32⟩ : BufTy).Contents (Elt Ideal))
    (x3 : (⟨S64, .f32⟩ : BufTy).Contents (Elt Ideal)) (x7 : (⟨S2x1600000, .i32⟩ : BufTy).Contents (Elt Ideal)) :
    (⟨S100000x64, .f32⟩ : BufTy).Contents (Elt Ideal) :=
  Sage.relu (Sage.layer (N := 100000) (C := 32) (O := 64) (agg32 x0 (srcRow x7) (dstRow x7)) x0 (deg (dstRow x7)) x1 x2 x3)

/-- The second layer's output: the program's result. -/
def result (x0 : (⟨S100000x32, .f32⟩ : BufTy).Contents (Elt Ideal)) (x1 x2 : (⟨S64x32, .f32⟩ : BufTy).Contents (Elt Ideal))
    (x3 : (⟨S64, .f32⟩ : BufTy).Contents (Elt Ideal)) (x4 x5 : (⟨S32x64, .f32⟩ : BufTy).Contents (Elt Ideal))
    (x6 : (⟨S32, .f32⟩ : BufTy).Contents (Elt Ideal)) (x7 : (⟨S2x1600000, .i32⟩ : BufTy).Contents (Elt Ideal)) :
    (⟨S100000x32, .f32⟩ : BufTy).Contents (Elt Ideal) :=
  Sage.layer (N := 100000) (C := 64) (O := 32) (agg64 (hidden x0 x1 x2 x3 x7) (srcRow x7) (dstRow x7))
    (hidden x0 x1 x2 x3 x7) (deg (dstRow x7)) x4 x5 x6

/-! ## After the first launch -/

/-- The first launch leaves the first layer's activations in its result array. -/
theorem v26_eq (c : Dev nD) : W2 m ρ c (Proc.devRef .tc main_v26)
    = hidden (m ((c : Thread nD τ).loc main_arg0)) (m ((c : Thread nD τ).loc main_arg1)) (m ((c : Thread nD τ).loc main_arg2))
        (m ((c : Thread nD τ).loc main_arg3)) (m ((c : Thread nD τ).loc main_arg7)) := by
  refine ((W2_arr m ρ c 6).trans (Tile0.final (V1 m ρ) c)).trans ?_
  unfold Tile0.G hidden
  rw [v22_eq, arg0_eq, v12_eq, v23_eq, v24_eq, v25_eq]
  exact congrArg Sage.relu (Sage.combine_eq_layer _ _ _ _ _ _ _ _ _ _ (fun n => invCol_apply _ n)
    (fun k o => transpose_64x32_apply _ k o) (fun k o => transpose_64x32_apply _ k o)
    (fun o => shapeCast_a_1a_apply _ _ 0 o))

/-- The launch keeps the buffers that are not its arrays: the source ids … -/
theorem w2_v1 (c : Dev nD) : W2 m ρ c (Proc.devRef .tc main_v1) = srcRow (m ((c : Thread nD τ).loc main_arg7)) :=
  (W2_of_ne m ρ c main_v1 (by decide)).trans (v1_eq m ρ c)
/-- … the destination ids … -/
theorem w2_v3 (c : Dev nD) : W2 m ρ c (Proc.devRef .tc main_v3) = dstRow (m ((c : Thread nD τ).loc main_arg7)) :=
  (W2_of_ne m ρ c main_v3 (by decide)).trans (v3_eq m ρ c)
/-- … and the second layer's parameters, still as launched. -/
theorem w2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem w2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem w2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
/-- The reciprocal-degree column is an input of the launch: it comes out as it went in. -/
theorem w2_v12 (c : Dev nD) : W2 m ρ c (Proc.devRef .tc main_v12) = invCol (dstRow (m ((c : Thread nD τ).loc main_arg7))) :=
  ((W2_arr m ρ c 2).trans (((dat0 (V1 m ρ) c).arrAt_in 2 rfl _).trans (A_eq0 (V1 m ρ) c 2))).trans (v12_eq m ρ c)

/-! ## The second launch's operands, read through the host operations between the launches -/

set_option maxHeartbeats 8000000 in
theorem v36_eq (c : Dev nD) : V3 m ρ c main_v36
    = agg64 (W2 m ρ c (Proc.devRef .tc main_v26)) (W2 m ρ c (Proc.devRef .tc main_v1)) (W2 m ρ c (Proc.devRef .tc main_v3)) := by
  show StableHlo.after hostOps1 (W2 m ρ c) (Proc.devRef .tc main_v36) = _
  after_results <;> rfl

set_option maxHeartbeats 8000000 in
theorem v26'_eq (c : Dev nD) : V3 m ρ c main_v26 = W2 m ρ c (Proc.devRef .tc main_v26) := by
  show StableHlo.after hostOps1 (W2 m ρ c) (Proc.devRef .tc main_v26) = _
  after_results <;> rfl

set_option maxHeartbeats 8000000 in
theorem v12'_eq (c : Dev nD) : V3 m ρ c main_v12 = W2 m ρ c (Proc.devRef .tc main_v12) := by
  show StableHlo.after hostOps1 (W2 m ρ c) (Proc.devRef .tc main_v12) = _
  after_results <;> rfl

set_option maxHeartbeats 8000000 in
theorem v37_eq (c : Dev nD) : V3 m ρ c main_v37
    = transpose S64x32 [1, 0] (W2 m ρ c (Proc.devRef .tc main_arg4)) transposes_S32x64_S64x32_1_0 := by
  show StableHlo.after hostOps1 (W2 m ρ c) (Proc.devRef .tc main_v37) = _
  after_results <;> rfl

set_option maxHeartbeats 8000000 in
theorem v38_eq (c : Dev nD) : V3 m ρ c main_v38
    = transpose S64x32 [1, 0] (W2 m ρ c (Proc.devRef .tc main_arg5)) transposes_S32x64_S64x32_1_0 := by
  show StableHlo.after hostOps1 (W2 m ρ c) (Proc.devRef .tc main_v38) = _
  after_results <;> rfl

set_option maxHeartbeats 8000000 in
theorem v39_eq (c : Dev nD) : V3 m ρ c main_v39 = shapeCast S1x32 (W2 m ρ c (Proc.devRef .tc main_arg6)) shapeCasts_S32_S1x32 := by
  show StableHlo.after hostOps1 (W2 m ρ c) (Proc.devRef .tc main_v39) = _
  after_results <;> rfl

/-! ## The result buffer -/

/-- After the second launch the result buffer holds `result` of the eight arguments. -/
theorem value (c : Dev nD) : W4 m ρ c (Proc.devRef .tc main_v40)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W4_arr m ρ c 6).trans (Tile1.final (V3 m ρ) c)).trans ?_
  unfold Tile1.G result
  rw [v36_eq, v26'_eq, v12'_eq, v37_eq, v38_eq, v39_eq, v26_eq, w2_v1, w2_v3, w2_v12, w2_arg4, w2_arg5, w2_arg6]
  exact Sage.combine_eq_layer _ _ _ _ _ _ _ _ _ _ (fun n => invCol_apply _ n)
    (fun k o => transpose_32x64_apply _ k o) (fun k o => transpose_32x64_apply _ k o)
    (fun o => shapeCast_a_1a_apply _ _ 0 o)

end Cert.KernelIdeal.Final

end
-- ==== Proof.RefLayers.lean ====
/-
  The reference program, layer by layer, is `layer`.

  Its first layer divides the neighbour sums by the clamped degree broadcast along the channels, multiplies by the two
  transposed weight matrices, adds the bias broadcast along the nodes and rectifies against a zero array; read at node
  `n` and channel `o` that is `max (layer agg x deg Wl Wr b (n, o)) 0`.  Its second layer is the same without the
  rectifier, over the first layer's activations.  The neighbour sums and the degrees themselves (a gather followed by a
  scatter-add over the edge list) are kept as the reference's own stages: nothing here looks inside them.
-/
import proofs.«135853_j34342558499454_2_alg».proof.Proof.Gen.ReferenceIdeal.Read
import proofs.«135853_j34342558499454_2_alg».proof.Proof.SageSpec

noncomputable section

namespace Cert.ReferenceIdeal.Layers

open Cert.ReferenceIdeal Cert.ReferenceIdeal.Gen Cert.ReferenceIdeal.Read Idealize.ShloMosaic Idealize.ShloMosaic.ValueIdx
open scoped BigOperators

/-! ## The printed index maps at coordinates -/

theorem l24 (n : Fin 100000) (o : Fin 64) (k : Fin 32) : lidx_main_v24 (ix2 n o) k = ix2 n k :=
  funext fun a => Fin.ext (by match a with | ⟨0, _⟩ => rfl | ⟨1, _⟩ => rfl)
theorem r24 (n : Fin 100000) (o : Fin 64) (k : Fin 32) : ridx_main_v24 (ix2 n o) k = ix2 k o :=
  funext fun a => Fin.ext (by match a with | ⟨0, _⟩ => rfl | ⟨1, _⟩ => rfl)
theorem l26 (n : Fin 100000) (o : Fin 64) (k : Fin 32) : lidx_main_v26 (ix2 n o) k = ix2 n k :=
  funext fun a => Fin.ext (by match a with | ⟨0, _⟩ => rfl | ⟨1, _⟩ => rfl)
theorem r26 (n : Fin 100000) (o : Fin 64) (k : Fin 32) : ridx_main_v26 (ix2 n o) k = ix2 k o :=
  funext fun a => Fin.ext (by match a with | ⟨0, _⟩ => rfl | ⟨1, _⟩ => rfl)
theorem i23 (k : Fin 32) (o : Fin 64) : idx_main_v23 (ix2 k o) = ix2 o k :=
  funext fun a => Fin.ext (by match a with | ⟨0, _⟩ => rfl | ⟨1, _⟩ => rfl)
theorem i25 (k : Fin 32) (o : Fin 64) : idx_main_v25 (ix2 k o) = ix2 o k :=
  funext fun a => Fin.ext (by match a with | ⟨0, _⟩ => rfl | ⟨1, _⟩ => rfl)
theorem i21 (n : Fin 100000) (k : Fin 32) : idx_main_v21 (ix2 n k) = ix2 n (0 : Fin 1) :=
  funext fun a => Fin.ext (by match a with | ⟨0, _⟩ => rfl | ⟨1, _⟩ => rfl)
theorem i20 (n : Fin 100000) (u : Fin 1) : idx_main_v20 (ix2 n u) = ix1 n :=
  funext fun a => Fin.ext (by match a with | ⟨0, _⟩ => rfl)
theorem i29 (n : Fin 100000) (o : Fin 64) : idx_main_v29 (ix2 n o) = ix2 (0 : Fin 1) o :=
  funext fun a => Fin.ext (by match a with | ⟨0, _⟩ => rfl | ⟨1, _⟩ => rfl)
theorem i28 (u : Fin 1) (o : Fin 64) : idx_main_v28 (ix2 u o) = ix1 o :=
  funext fun a => Fin.ext (by match a with | ⟨0, _⟩ => rfl)

theorem l52 (n : Fin 100000) (o : Fin 32) (k : Fin 64) : lidx_main_v52 (ix2 n o) k = ix2 n k :=
  funext fun a => Fin.ext (by match a with | ⟨0, _⟩ => rfl | ⟨1, _⟩ => rfl)
theorem r52 (n : Fin 100000) (o : Fin 32) (k : Fin 64) : ridx_main_v52 (ix2 n o) k = ix2 k o :=
  funext fun a => Fin.ext (by match a with | ⟨0, _⟩ => rfl | ⟨1, _⟩ => rfl)
theorem l54 (n : Fin 100000) (o : Fin 32) (k : Fin 64) : lidx_main_v54 (ix2 n o) k = ix2 n k :=
  funext fun a => Fin.ext (by match a with | ⟨0, _⟩ => rfl | ⟨1, _⟩ => rfl)
theorem r54 (n : Fin 100000) (o : Fin 32) (k : Fin 64) : ridx_main_v54 (ix2 n o) k = ix2 k o :=
  funext fun a => Fin.ext (by match a with | ⟨0, _⟩ => rfl | ⟨1, _⟩ => rfl)
theorem i51 (k : Fin 64) (o : Fin 32) : idx_main_v51 (ix2 k o) = ix2 o k :=
  funext fun a => Fin.ext (by match a with | ⟨0, _⟩ => rfl | ⟨1, _⟩ => rfl)
theorem i53 (k : Fin 64) (o : Fin 32) : idx_main_v53 (ix2 k o) = ix2 o k :=
  funext fun a => Fin.ext (by match a with | ⟨0, _⟩ => rfl | ⟨1, _⟩ => rfl)
theorem i49 (n : Fin 100000) (k : Fin 64) : idx_main_v49 (ix2 n k) = ix2 n (0 : Fin 1) :=
  funext fun a => Fin.ext (by match a with | ⟨0, _⟩ => rfl | ⟨1, _⟩ => rfl)
theorem i48 (n : Fin 100000) (u : Fin 1) : idx_main_v48 (ix2 n u) = ix1 n :=
  funext fun a => Fin.ext (by match a with | ⟨0, _⟩ => rfl)
theorem i57 (n : Fin 100000) (o : Fin 32) : idx_main_v57 (ix2 n o) = ix2 (0 : Fin 1) o :=
  funext fun a => Fin.ext (by match a with | ⟨0, _⟩ => rfl | ⟨1, _⟩ => rfl)
theorem i56 (u : Fin 1) (o : Fin 32) : idx_main_v56 (ix2 u o) = ix1 o :=
  funext fun a => Fin.ext (by match a with | ⟨0, _⟩ => rfl)

/-! ## The two layers -/

/-- The first layer's activations are the rectified `layer` of the first neighbour sums, the node features, the degrees,
    the first weights and bias. -/
theorem first (x0 : (⟨S100000x32, .f32⟩ : BufTy).Contents (Elt Ideal)) (x1 x2 : (⟨S64x32, .f32⟩ : BufTy).Contents (Elt Ideal))
    (x3 : (⟨S64, .f32⟩ : BufTy).Contents (Elt Ideal)) (x7 : (⟨S2x1600000, .i32⟩ : BufTy).Contents (Elt Ideal)) :
    val_main_v31 (F := Ideal) x0 x1 x2 x3 x7
      = Sage.relu (Sage.layer (N := 100000) (C := 32) (O := 64) (val_main_v13 (F := Ideal) x0 x7) x0
          (val_main_v17 (F := Ideal) x7) x1 x2 x3) := by
  funext i
  obtain ⟨n, o, rfl⟩ : ∃ (n : Fin 100000) (o : Fin 64), i = ix2 n o := ⟨i 0, i 1, eq_ix2 i⟩
  unfold Sage.relu
  rw [Sage.layer_apply, val_main_v31_apply, val_main_v30_apply, val_main_v27_apply, val_main_v24_apply, val_main_v26_apply]
  -- the mean's summand: the quotient by the clamped degree of node `n`, times the weight at `(o, k)`
  have h1 : ∀ k : Fin 32, val_main_v22 (F := Ideal) x0 x7 (lidx_main_v24 (ix2 n o) k) * val_main_v23 (F := Ideal) x1 (ridx_main_v24 (ix2 n o) k)
      = Ideal.div (val_main_v13 (F := Ideal) x0 x7 (ix2 n k)) (max (val_main_v17 (F := Ideal) x7 (ix1 n)) (Ideal.ofBits .f32 0x3F800000#32)) * x1 (ix2 o k) := fun k => by
    rw [l24, r24, val_main_v22_apply, val_main_v21_apply, i21, val_main_v20_apply, i20, val_main_v19_apply, val_main_v18_apply,
      val_main_cst_3_apply, val_main_v23_apply, i23]
    rfl
  -- the root's summand
  have h2 : ∀ k : Fin 32, x0 (lidx_main_v26 (ix2 n o) k) * val_main_v25 (F := Ideal) x2 (ridx_main_v26 (ix2 n o) k)
      = x0 (ix2 n k) * x2 (ix2 o k) := fun k => by
    rw [l26, r26, val_main_v25_apply, i25]
  -- the bias, broadcast along the nodes
  have h3 : val_main_v29 (F := Ideal) x3 (ix2 n o) = x3 (ix1 o) := by
    rw [val_main_v29_apply, i29, val_main_v28_apply, i28]
  -- the rectifier's zero array
  have h4 : val_main_call0_v0 (F := Ideal) (ix2 n o) = Ideal.ofBits .f32 0x00000000#32 := by
    rw [val_main_call0_v0_apply, val_main_call0_cst_apply]
    rfl
  rw [Finset.sum_congr rfl (fun k _ => h1 k), Finset.sum_congr rfl (fun k _ => h2 k), h3, h4]
  rfl

/-- The result is the `layer` of the second neighbour sums, the first layer's activations, the degrees, the second weights
    and bias. -/
theorem second (x0 : (⟨S100000x32, .f32⟩ : BufTy).Contents (Elt Ideal)) (x1 x2 : (⟨S64x32, .f32⟩ : BufTy).Contents (Elt Ideal))
    (x3 : (⟨S64, .f32⟩ : BufTy).Contents (Elt Ideal)) (x4 x5 : (⟨S32x64, .f32⟩ : BufTy).Contents (Elt Ideal))
    (x6 : (⟨S32, .f32⟩ : BufTy).Contents (Elt Ideal)) (x7 : (⟨S2x1600000, .i32⟩ : BufTy).Contents (Elt Ideal)) :
    val_main_v58 (F := Ideal) x0 x1 x2 x3 x4 x5 x6 x7
      = Sage.layer (N := 100000) (C := 64) (O := 32) (val_main_v41 (F := Ideal) x0 x1 x2 x3 x7)
          (val_main_v31 (F := Ideal) x0 x1 x2 x3 x7) (val_main_v45 (F := Ideal) x7) x4 x5 x6 := by
  funext i
  obtain ⟨n, o, rfl⟩ : ∃ (n : Fin 100000) (o : Fin 32), i = ix2 n o := ⟨i 0, i 1, eq_ix2 i⟩
  rw [Sage.layer_apply, val_main_v58_apply, val_main_v55_apply, val_main_v52_apply, val_main_v54_apply]
  -- the mean's summand
  have h1 : ∀ k : Fin 64, val_main_v50 (F := Ideal) x0 x1 x2 x3 x7 (lidx_main_v52 (ix2 n o) k) * val_main_v51 (F := Ideal) x4 (ridx_main_v52 (ix2 n o) k)
      = Ideal.div (val_main_v41 (F := Ideal) x0 x1 x2 x3 x7 (ix2 n k)) (max (val_main_v45 (F := Ideal) x7 (ix1 n)) (Ideal.ofBits .f32 0x3F800000#32)) * x4 (ix2 o k) := fun k => by
    rw [l52, r52, val_main_v50_apply, val_main_v49_apply, i49, val_main_v48_apply, i48, val_main_v47_apply, val_main_v46_apply,
      val_main_cst_9_apply, val_main_v51_apply, i51]
    rfl
  -- the root's summand
  have h2 : ∀ k : Fin 64, val_main_v31 (F := Ideal) x0 x1 x2 x3 x7 (lidx_main_v54 (ix2 n o) k) * val_main_v53 (F := Ideal) x5 (ridx_main_v54 (ix2 n o) k)
      = val_main_v31 (F := Ideal) x0 x1 x2 x3 x7 (ix2 n k) * x5 (ix2 o k) := fun k => by
    rw [l54, r54, val_main_v53_apply, i53]
  -- the bias, broadcast along the nodes
  have h3 : val_main_v57 (F := Ideal) x6 (ix2 n o) = x6 (ix1 o) := by
    rw [val_main_v57_apply, i57, val_main_v56_apply, i56]
  rw [Finset.sum_congr rfl (fun k _ => h1 k), Finset.sum_congr rfl (fun k _ => h2 k), h3]
  rfl

end Cert.ReferenceIdeal.Layers

end
-- ==== Proof.Bridge.lean ====
/-
  The reference's result is the kernel program's `result`.

  Both programs build the neighbour sums and the in-degrees with the same host operations on the same edge list — the
  same slices of the edge array, the same wrap of negative ids, the same gather and the same scatter-adds into zero
  arrays.  So the reference's stages for them ARE the pieces the kernel program's value is stated over, by unfolding the
  names on both sides; the gather and the scatter-add themselves are never opened.  With that, the reference's two
  layers (each a `layer`) compose to `result`.
-/
import proofs.«135853_j34342558499454_2_alg».proof.Proof.KernelValue
import proofs.«135853_j34342558499454_2_alg».proof.Proof.RefLayers

noncomputable section

namespace Cert.Bridge

open Idealize.ShloMosaic
open Cert.ReferenceIdeal Cert.ReferenceIdeal.Read
open Cert.KernelIdeal.Final (srcRow dstRow agg32 agg64 deg hidden result)

variable (x0 : (⟨S100000x32, .f32⟩ : BufTy).Contents (Elt Ideal)) (x1 x2 : (⟨S64x32, .f32⟩ : BufTy).Contents (Elt Ideal))
  (x3 : (⟨S64, .f32⟩ : BufTy).Contents (Elt Ideal)) (x4 x5 : (⟨S32x64, .f32⟩ : BufTy).Contents (Elt Ideal))
  (x6 : (⟨S32, .f32⟩ : BufTy).Contents (Elt Ideal)) (x7 : (⟨S2x1600000, .i32⟩ : BufTy).Contents (Elt Ideal))

/-- The reference's first neighbour sums are `agg32` of the node features and the edge rows. -/
theorem agg_first : val_main_v13 (F := Ideal) x0 x7 = agg32 x0 (srcRow x7) (dstRow x7) := rfl

/-- The reference's in-degrees, computed for the first layer … -/
theorem deg_first : val_main_v17 (F := Ideal) x7 = deg (dstRow x7) := rfl

/-- … and computed again for the second, are `deg` of the destination row. -/
theorem deg_second : val_main_v45 (F := Ideal) x7 = deg (dstRow x7) := rfl

/-- The reference's second neighbour sums are `agg64` of its first layer's activations and the edge rows. -/
theorem agg_second : val_main_v41 (F := Ideal) x0 x1 x2 x3 x7
    = agg64 (val_main_v31 (F := Ideal) x0 x1 x2 x3 x7) (srcRow x7) (dstRow x7) := rfl

/-- The reference's first layer is `hidden`. -/
theorem reference_hidden : val_main_v31 (F := Ideal) x0 x1 x2 x3 x7 = hidden x0 x1 x2 x3 x7 := by
  rw [Cert.ReferenceIdeal.Layers.first, agg_first, deg_first]
  rfl

/-- The reference's result is `result`. -/
theorem reference_result : val_main_v58 (F := Ideal) x0 x1 x2 x3 x4 x5 x6 x7 = result x0 x1 x2 x3 x4 x5 x6 x7 := by
  rw [Cert.ReferenceIdeal.Layers.second, agg_second, deg_second, reference_hidden]
  rfl

end Cert.Bridge

end
-- ==== Proof.lean ====
/-
  Two layers of mean-aggregating graph convolution with a rectifier between them: a tiled kernel program against a
  plain reference, equal as functions of the arguments over the extended reals.

  Each layer sends node features `x`, neighbour sums `agg` (a gather along the edges' sources scatter-added along their
  destinations) and in-degrees `deg` to
      Σ_k (agg[n,k] / max(deg[n], 1)) · Wl[o,k]  +  Σ_k x[n,k] · Wr[o,k]  +  b[o]        (Proof/SageSpec.lean, `layer`).
  The reference computes exactly that, twice (Proof/RefLayers.lean).  The kernel program counts the degrees once, hands
  each launch the column `1 / max(deg, 1)`, the transposed weights and the bias as a row, and its tile body multiplies by
  the column instead of dividing (Proof/Body0.lean, Proof/Body1.lean); the row blocks of the 20 grid points tile the
  100000 nodes (Proof/Tile0.lean, Proof/Tile1.lean), and read through the host operations around the launches the result
  buffer ends at the same two `layer`s (Proof/KernelRun.lean, Proof/KernelValue.lean).  The one law that joins the two
  spellings is `a · (1 / max(d, 1)) = a / max(d, 1)`, true on all of the extended reals because the clamp is never zero —
  so the finiteness precondition is not used.  The gather and the scatter-add are the same operations on the same
  operands in both programs and are never opened (Proof/Bridge.lean).
  The three frame claims are the generated frame runs; the idealization rewrote nothing, so `preserves` is `True`.
-/
import proofs.«135853_j34342558499454_2_alg».proof.Defs
import proofs.«135853_j34342558499454_2_alg».proof.Proof.Gen.Kernel
import proofs.«135853_j34342558499454_2_alg».proof.Proof.Gen.Kernel.Frame
import proofs.«135853_j34342558499454_2_alg».proof.Proof.Gen.KernelIdeal
import proofs.«135853_j34342558499454_2_alg».proof.Proof.Gen.KernelIdeal.Frame
import proofs.«135853_j34342558499454_2_alg».proof.Proof.Gen.ReferenceIdeal
import proofs.«135853_j34342558499454_2_alg».proof.Proof.Gen.ReferenceIdeal.Run
import proofs.«135853_j34342558499454_2_alg».proof.Proof.Gen.ReferenceIdeal.Read
import proofs.«135853_j34342558499454_2_alg».proof.Proof.Gen.Pre_finite_inputs
import proofs.«135853_j34342558499454_2_alg».proof.Proof.KernelRun
import proofs.«135853_j34342558499454_2_alg».proof.Proof.KernelValue
import proofs.«135853_j34342558499454_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at `result` of the arguments. -/
theorem algebraic : Cert.algebraic_KernelIdeal_ReferenceIdeal := by
  intro m ρ m' ρ' _ hagree
  refine ⟨fun c => Cert.KernelIdeal.Final.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Final.value m ρ c), (h c).2⟩)
      (Cert.KernelIdeal.RunValue.run_final (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, Cert.Bridge.reference_result, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
